-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x256x256x2 : Shape := ⟨4, ![8, 256, 256, 2]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x256x256x2 : S_.BroadcastsInDim S8x256x256x2 (![] : Fin 0 → Fin S8x256x256x2.rank)
  reducesTo_S8x256x256x2_S_d0_1_2_3 : S8x256x256x2.ReducesTo [0, 1, 2, 3] S_

variable [Facts]

def fn {F : FTy → Type} [FloatOps F] (main_arg0 : FVec F S8x64x256x256 .f32) (main_arg1 : FVec F S8x256x256x2 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x256x256x2 .f32 := Host.absf main_arg1
  let main_cst_0 : FVec F S_ .f32 := constant S_ .f32 0x7F800000#32
  let main_v5 : FVec F S8x256x256x2 .f32 := broadcastInDim S8x256x256x2 ![] bcast_S_S8x256x256x2 main_cst_0
  let main_v6 : IVec S8x256x256x2 1 := cmpf .olt main_v4 main_v5
  let main_c_1 : IVec S_ 1 := constantI S_ 1 1#1
  let main_v7 : IVec S_ 1 := (fun x v => Host.reduce IntOp.andi x v reducesTo_S8x256x256x2_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x256x256x2 : Shape := ⟨4, ![8, 256, 256, 2]⟩
abbrev S8x256x256x1 : Shape := ⟨4, ![8, 256, 256, 1]⟩
abbrev S8x256x256 : Shape := ⟨3, ![8, 256, 256]⟩
abbrev S_ : Shape := ⟨0, ![]⟩
abbrev S8x256x256x64 : Shape := ⟨4, ![8, 256, 256, 64]⟩
abbrev S8 : Shape := ⟨1, ![8]⟩
abbrev S8x1x1 : Shape := ⟨3, ![8, 1, 1]⟩
abbrev S8x256x256x3 : Shape := ⟨4, ![8, 256, 256, 3]⟩
abbrev S1x32x256x64 : Shape := ⟨4, ![1, 32, 256, 64]⟩
abbrev S1x32x256 : Shape := ⟨3, ![1, 32, 256]⟩
abbrev S1x32x256x1 : Shape := ⟨4, ![1, 32, 256, 1]⟩

abbrev nBuf : Space → Nat
  | .hbm => 193
  | .vmem => 18
  | .smem => 0
  | _ => 0

abbrev hbmTy0_0 (i : Nat) : BufTy := match i % 128 with
  | 0 => ⟨S8x64x256x256, .f32⟩
  | 1 => ⟨S8x256x256x2, .f32⟩
  | 2 => ⟨S8x256x256x1, .f32⟩
  | 3 => ⟨S8x256x256, .f32⟩
  | 4 => ⟨S_, .f32⟩
  | 5 => ⟨S8x256x256, .f32⟩
  | 6 => ⟨S8x256x256, .f32⟩
  | 7 => ⟨S_, .f32⟩
  | 8 => ⟨S8x256x256, .f32⟩
  | 9 => ⟨S8x256x256, .f32⟩
  | 10 => ⟨S_, .f32⟩
  | 11 => ⟨S8x256x256, .f32⟩
  | 12 => ⟨S8x256x256, .f32⟩
  | 13 => ⟨S8x256x256x1, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S8x256x256, .f32⟩
  | 25 => ⟨S8x256x256, .f32⟩
  | 26 => ⟨S8x256x256, .f32⟩
  | 27 => ⟨S8x256x256, .f32⟩
  | 28 => ⟨S_, .f32⟩
  | 29 => ⟨S8x256x256, .f32⟩
  | 30 => ⟨S8x256x256, .f32⟩
  | 31 => ⟨S_, .f32⟩
  | 32 => ⟨S8x256x256, .f32⟩
  | 33 => ⟨S8x256x256, .f32⟩
  | 34 => ⟨S_, .i32⟩
  | 35 => ⟨S_, .i32⟩
  | 36 => ⟨S_, .f32⟩
  | 37 => ⟨S8x256x256, .f32⟩
  | 38 => ⟨S8x256x256, .f32⟩
  | 39 => ⟨S_, .f32⟩
  | 40 => ⟨S8x256x256, .f32⟩
  | 41 => ⟨S8x256x256, .f32⟩
  | 42 => ⟨S8x256x256, .i32⟩
  | 43 => ⟨S_, .f32⟩
  | 44 => ⟨S8x256x256, .f32⟩
  | 45 => ⟨S8x256x256, .f32⟩
  | 46 => ⟨S_, .i32⟩
  | 47 => ⟨S_, .i32⟩
  | 48 => ⟨S_, .f32⟩
  | 49 => ⟨S8x256x256, .f32⟩
  | 50 => ⟨S8x256x256, .f32⟩
  | 51 => ⟨S_, .f32⟩
  | 52 => ⟨S8x256x256, .f32⟩
  | 53 => ⟨S8x256x256, .f32⟩
  | 54 => ⟨S8x256x256, .i32⟩
  | 55 => ⟨S_, .i32⟩
  | 56 => ⟨S_, .i32⟩
  | 57 => ⟨S_, .f32⟩
  | 58 => ⟨S8x256x256, .f32⟩
  | 59 => ⟨S8x256x256, .f32⟩
  | 60 => ⟨S_, .f32⟩
  | 61 => ⟨S8x256x256, .f32⟩
  | 62 => ⟨S8x256x256, .f32⟩
  | 63 => ⟨S8x256x256, .i32⟩
  | 64 => ⟨S_, .f32⟩
  | 65 => ⟨S8x256x256, .f32⟩
  | 66 => ⟨S8x256x256, .f32⟩
  | 67 => ⟨S_, .i32⟩
  | 68 => ⟨S_, .i32⟩
  | 69 => ⟨S_, .f32⟩
  | 70 => ⟨S8x256x256, .f32⟩
  | 71 => ⟨S8x256x256, .f32⟩
  | 72 => ⟨S_, .f32⟩
  | 73 => ⟨S8x256x256, .f32⟩
  | 74 => ⟨S8x256x256, .f32⟩
  | 75 => ⟨S8x256x256, .i32⟩
  | 76 => ⟨S8x256x256x64, .f32⟩
  | 77 => ⟨S8, .i32⟩
  | 78 => ⟨S8x1x1, .i32⟩
  | 79 => ⟨S_, .i32⟩
  | 80 => ⟨S8x1x1, .i32⟩
  | 81 => ⟨S8x1x1, .i1⟩
  | 82 => ⟨S_, .i32⟩
  | 83 => ⟨S8x1x1, .i32⟩
  | 84 => ⟨S8x1x1, .i32⟩
  | 85 => ⟨S8x1x1, .i32⟩
  | 86 => ⟨S_, .i32⟩
  | 87 => ⟨S8x256x256, .i32⟩
  | 88 => ⟨S8x256x256, .i1⟩
  | 89 => ⟨S_, .i32⟩
  | 90 => ⟨S8x256x256, .i32⟩
  | 91 => ⟨S8x256x256, .i32⟩
  | 92 => ⟨S8x256x256, .i32⟩
  | 93 => ⟨S_, .i32⟩
  | 94 => ⟨S8x256x256, .i32⟩
  | 95 => ⟨S8x256x256, .i1⟩
  | 96 => ⟨S_, .i32⟩
  | 97 => ⟨S8x256x256, .i32⟩
  | 98 => ⟨S8x256x256, .i32⟩
  | 99 => ⟨S8x256x256, .i32⟩
  | 100 => ⟨S8x256x256, .i32⟩
  | 101 => ⟨S8x256x256x1, .i32⟩
  | 102 => ⟨S8x256x256x1, .i32⟩
  | 103 => ⟨S8x256x256x1, .i32⟩
  | 104 => ⟨S8x256x256x3, .i32⟩
  | 105 => ⟨S8x256x256x64, .f32⟩
  | 106 => ⟨S_, .i32⟩
  | 107 => ⟨S8x1x1, .i32⟩
  | 108 => ⟨S8x1x1, .i1⟩
  | 109 => ⟨S_, .i32⟩
  | 110 => ⟨S8x1x1, .i32⟩
  | 111 => ⟨S8x1x1, .i32⟩
  | 112 => ⟨S8x1x1, .i32⟩
  | 113 => ⟨S_, .i32⟩
  | 114 => ⟨S8x256x256, .i32⟩
  | 115 => ⟨S8x256x256, .i1⟩
  | 116 => ⟨S_, .i32⟩
  | 117 => ⟨S8x256x256, .i32⟩
  | 118 => ⟨S8x256x256, .i32⟩
  | 119 => ⟨S8x256x256, .i32⟩
  | 120 => ⟨S_, .i32⟩
  | 121 => ⟨S8x256x256, .i32⟩
  | 122 => ⟨S8x256x256, .i1⟩
  | 123 => ⟨S_, .i32⟩
  | 124 => ⟨S8x256x256, .i32⟩
  | 125 => ⟨S8x256x256, .i32⟩
  | 126 => ⟨S8x256x256, .i32⟩
  | 127 => ⟨S8x256x256, .i32⟩
  | _ => ⟨S8x64x256x256, .f32⟩

abbrev hbmTy0_1 (i : Nat) : BufTy := match i % 128 with
  | 0 => ⟨S8x256x256x1, .i32⟩
  | 1 => ⟨S8x256x256x1, .i32⟩
  | 2 => ⟨S8x256x256x1, .i32⟩
  | 3 => ⟨S8x256x256x3, .i32⟩
  | 4 => ⟨S8x256x256x64, .f32⟩
  | 5 => ⟨S_, .i32⟩
  | 6 => ⟨S8x1x1, .i32⟩
  | 7 => ⟨S8x1x1, .i1⟩
  | 8 => ⟨S_, .i32⟩
  | 9 => ⟨S8x1x1, .i32⟩
  | 10 => ⟨S8x1x1, .i32⟩
  | 11 => ⟨S8x1x1, .i32⟩
  | 12 => ⟨S_, .i32⟩
  | 13 => ⟨S8x256x256, .i32⟩
  | 14 => ⟨S8x256x256, .i1⟩
  | 15 => ⟨S_, .i32⟩
  | 16 => ⟨S8x256x256, .i32⟩
  | 17 => ⟨S8x256x256, .i32⟩
  | 18 => ⟨S8x256x256, .i32⟩
  | 19 => ⟨S_, .i32⟩
  | 20 => ⟨S8x256x256, .i32⟩
  | 21 => ⟨S8x256x256, .i1⟩
  | 22 => ⟨S_, .i32⟩
  | 23 => ⟨S8x256x256, .i32⟩
  | 24 => ⟨S8x256x256, .i32⟩
  | 25 => ⟨S8x256x256, .i32⟩
  | 26 => ⟨S8x256x256, .i32⟩
  | 27 => ⟨S8x256x256x1, .i32⟩
  | 28 => ⟨S8x256x256x1, .i32⟩
  | 29 => ⟨S8x256x256x1, .i32⟩
  | 30 => ⟨S8x256x256x3, .i32⟩
  | 31 => ⟨S8x256x256x64, .f32⟩
  | 32 => ⟨S_, .i32⟩
  | 33 => ⟨S8x1x1, .i32⟩
  | 34 => ⟨S8x1x1, .i1⟩
  | 35 => ⟨S_, .i32⟩
  | 36 => ⟨S8x1x1, .i32⟩
  | 37 => ⟨S8x1x1, .i32⟩
  | 38 => ⟨S8x1x1, .i32⟩
  | 39 => ⟨S_, .i32⟩
  | 40 => ⟨S8x256x256, .i32⟩
  | 41 => ⟨S8x256x256, .i1⟩
  | 42 => ⟨S_, .i32⟩
  | 43 => ⟨S8x256x256, .i32⟩
  | 44 => ⟨S8x256x256, .i32⟩
  | 45 => ⟨S8x256x256, .i32⟩
  | 46 => ⟨S_, .i32⟩
  | 47 => ⟨S8x256x256, .i32⟩
  | 48 => ⟨S8x256x256, .i1⟩
  | 49 => ⟨S_, .i32⟩
  | 50 => ⟨S8x256x256, .i32⟩
  | 51 => ⟨S8x256x256, .i32⟩
  | 52 => ⟨S8x256x256, .i32⟩
  | 53 => ⟨S8x256x256, .i32⟩
  | 54 => ⟨S8x256x256x1, .i32⟩
  | 55 => ⟨S8x256x256x1, .i32⟩
  | 56 => ⟨S8x256x256x1, .i32⟩
  | 57 => ⟨S8x256x256x3, .i32⟩
  | 58 => ⟨S8x256x256x64, .f32⟩
  | 59 => ⟨S8x256x256, .f32⟩
  | 60 => ⟨S8x256x256, .f32⟩
  | 61 => ⟨S8x256x256, .f32⟩
  | 62 => ⟨S8x256x256, .f32⟩
  | 63 => ⟨S8x256x256x64, .f32⟩
  | 64 => ⟨S8x64x256x256, .f32⟩
  | _ => ⟨S8x64x256x256, .f32⟩

abbrev hbmTy (i : Nat) : BufTy := match i / 128 with
  | 0 => hbmTy0_0 i
  | 1 => hbmTy0_1 i
  | _ => ⟨S8x64x256x256, .f32⟩

abbrev bufTy : (tb : Table) → Fin (tcTables nBuf tb) → BufTy
  | .hbm, ⟨i, _⟩ => hbmTy i
  | .local _ .vmem, ⟨0, _⟩ => ⟨S1x32x256x64, .f32⟩
  | .local _ .vmem, ⟨1, _⟩ => ⟨S1x32x256x64, .f32⟩
  | .local _ .vmem, ⟨2, _⟩ => ⟨S1x32x256x64, .f32⟩
  | .local _ .vmem, ⟨3, _⟩ => ⟨S1x32x256x64, .f32⟩
  | .local _ .vmem, ⟨4, _⟩ => ⟨S1x32x256x64, .f32⟩
  | .local _ .vmem, ⟨5, _⟩ => ⟨S1x32x256x64, .f32⟩
  | .local _ .vmem, ⟨6, _⟩ => ⟨S1x32x256x64, .f32⟩
  | .local _ .vmem, ⟨7, _⟩ => ⟨S1x32x256x64, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | .local _ .vmem, ⟨16, _⟩ => ⟨S1x32x256x64, .f32⟩
  | .local _ .vmem, ⟨17, _⟩ => ⟨S1x32x256x64, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_c_10 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_v29 : Ref sig .tc := ⟨.hbm, 54, rfl⟩
abbrev main_c_11 : Ref sig .tc := ⟨.hbm, 55, rfl⟩
abbrev main_c_12 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v30 : Ref sig .tc := ⟨.hbm, 62, rfl⟩
abbrev main_v31 : Ref sig .tc := ⟨.hbm, 63, rfl⟩
abbrev main_cst_13 : Ref sig .tc := ⟨.hbm, 64, rfl⟩
abbrev main_v32 : Ref sig .tc := ⟨.hbm, 65, rfl⟩
abbrev main_v33 : Ref sig .tc := ⟨.hbm, 66, rfl⟩
abbrev main_c_14 : Ref sig .tc := ⟨.hbm, 67, rfl⟩
abbrev main_c_15 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_16 : Ref sig .tc := ⟨.hbm, 79, rfl⟩
abbrev main_v39 : Ref sig .tc := ⟨.hbm, 80, rfl⟩
abbrev main_v40 : Ref sig .tc := ⟨.hbm, 81, rfl⟩
abbrev main_c_17 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_18 : Ref sig .tc := ⟨.hbm, 86, rfl⟩
abbrev main_v44 : Ref sig .tc := ⟨.hbm, 87, rfl⟩
abbrev main_v45 : Ref sig .tc := ⟨.hbm, 88, rfl⟩
abbrev main_c_19 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_20 : Ref sig .tc := ⟨.hbm, 93, rfl⟩
abbrev main_v49 : Ref sig .tc := ⟨.hbm, 94, rfl⟩
abbrev main_v50 : Ref sig .tc := ⟨.hbm, 95, rfl⟩
abbrev main_c_21 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_24 : Ref sig .tc := ⟨.hbm, 113, rfl⟩
abbrev main_v65 : Ref sig .tc := ⟨.hbm, 114, rfl⟩
abbrev main_v66 : Ref sig .tc := ⟨.hbm, 115, rfl⟩
abbrev main_c_25 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_26 : Ref sig .tc := ⟨.hbm, 120, rfl⟩
abbrev main_v70 : Ref sig .tc := ⟨.hbm, 121, rfl⟩
abbrev main_v71 : Ref sig .tc := ⟨.hbm, 122, rfl⟩
abbrev main_c_27 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_28 : Ref sig .tc := ⟨.hbm, 133, rfl⟩
abbrev main_v81 : Ref sig .tc := ⟨.hbm, 134, rfl⟩
abbrev main_v82 : Ref sig .tc := ⟨.hbm, 135, rfl⟩
abbrev main_c_29 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_30 : Ref sig .tc := ⟨.hbm, 140, rfl⟩
abbrev main_v86 : Ref sig .tc := ⟨.hbm, 141, rfl⟩
abbrev main_v87 : Ref sig .tc := ⟨.hbm, 142, rfl⟩
abbrev main_c_31 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_32 : Ref sig .tc := ⟨.hbm, 147, rfl⟩
abbrev main_v91 : Ref sig .tc := ⟨.hbm, 148, rfl⟩
abbrev main_v92 : Ref sig .tc := ⟨.hbm, 149, rfl⟩
abbrev main_c_33 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_34 : Ref sig .tc := ⟨.hbm, 160, rfl⟩
abbrev main_v102 : Ref sig .tc := ⟨.hbm, 161, rfl⟩
abbrev main_v103 : Ref sig .tc := ⟨.hbm, 162, rfl⟩
abbrev main_c_35 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_c_36 : Ref sig .tc := ⟨.hbm, 167, rfl⟩
abbrev main_v107 : Ref sig .tc := ⟨.hbm, 168, rfl⟩
abbrev main_v108 : Ref sig .tc := ⟨.hbm, 169, rfl⟩
abbrev main_c_37 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_38 : Ref sig .tc := ⟨.hbm, 174, rfl⟩
abbrev main_v112 : Ref sig .tc := ⟨.hbm, 175, rfl⟩
abbrev main_v113 : Ref sig .tc := ⟨.hbm, 176, rfl⟩
abbrev main_c_39 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  bcast_S_S8x256x256 : S_.BroadcastsInDim S8x256x256 (![] : Fin 0 → Fin S8x256x256.rank)
  slices_S8x256x256x2_S8x256x256x1_0_0_0_1 : S8x256x256x2.Slices ![0, 0, 0, 1] S8x256x256x1
  transposes_S8x64x256x256_S8x256x256x64_0_2_3_1 : S8x64x256x256.Transposes [0, 2, 3, 1] S8x256x256x64
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x256x256_0_1_2 : S8x1x1.BroadcastsInDim S8x256x256 (![0, 1, 2] : Fin 3 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x1_S8x256x256x3_d3 : Shape.Concatenates [S8x256x256x1, S8x256x256x1, S8x256x256x1] S8x256x256x3 3
  inb_S1x32x256_S1x32x256_0_0_0 : ∀ a, (![0, 0, 0] : Fin 3 → Nat) a + S1x32x256.size a ≤ S1x32x256.size a
  h_S1x32x256 : 0 < S1x32x256.numel
  shapeCasts_S1x32x256_S1x32x256 : S1x32x256.ShapeCasts S1x32x256
  shapeCasts_S1x32x256_S1x32x256x1 : S1x32x256.ShapeCasts S1x32x256x1
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S1x32x256x64 : S1x32x256x64.ShapeCasts S1x32x256x64
  broadcasts_S1x32x256x1_S1x32x256x64 : S1x32x256x1.Broadcasts S1x32x256x64
  transposes_S8x256x256x64_S8x64x256x256_0_3_1_2 : S8x256x256x64.Transposes [0, 3, 1, 2] S8x64x256x256
  gather_S8x256x256x64_S8x256x256x3_S8x256x256x64_3_012_n_n_012_3_11164_wf : GatherDims.WF S8x256x256x64 S8x256x256x3 S8x256x256x64 [3] [0, 1, 2] [] [0, 1, 2] [] 3 ![1, 1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x64.size a ≤ S8x256x256x64.size a
  hwx0_0 : ∀ i : grid0.Coords, EltTy.bits .f32 = 32 ∨ (Rect.block (s := S8x256x256x64) S1x32x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x64.size a ≤ S8x256x256x64.size a
  hwx0_1 : ∀ i : grid0.Coords, EltTy.bits .f32 = 32 ∨ (Rect.block (s := S8x256x256x64) S1x32x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x64.size a ≤ S8x256x256x64.size a
  hwx0_2 : ∀ i : grid0.Coords, EltTy.bits .f32 = 32 ∨ (Rect.block (s := S8x256x256x64) S1x32x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256x64.size a ≤ S8x256x256x64.size a
  hwx0_3 : ∀ i : grid0.Coords, EltTy.bits .f32 = 32 ∨ (Rect.block (s := S8x256x256x64) S1x32x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x256.size a ≤ S8x256x256.size a
  hwx0_4 : ∀ i : grid0.Coords, EltTy.bits .f32 = 32 ∨ (Rect.block (s := S8x256x256) S1x32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256.size a ≤ S8x256x256.size a
  hwx0_5 : ∀ i : grid0.Coords, EltTy.bits .f32 = 32 ∨ (Rect.block (s := S8x256x256) S1x32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x256.size a ≤ S8x256x256.size a
  hwx0_6 : ∀ i : grid0.Coords, EltTy.bits .f32 = 32 ∨ (Rect.block (s := S8x256x256) S1x32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x256.size a ≤ S8x256x256.size a
  hwx0_7 : ∀ i : grid0.Coords, EltTy.bits .f32 = 32 ∨ (Rect.block (s := S8x256x256) S1x32x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x256x64.size a ≤ S8x256x256x64.size a
  hwx0_8 : ∀ i : grid0.Coords, EltTy.bits .f32 = 32 ∨ (Rect.block (s := S8x256x256x64) S1x32x256x64.size (cc0_transform_8 i) (hinb0_8 i)).WholeWords (EltTy.packing .f32)

variable [Facts₀]

def gather_S8x256x256x64_S8x256x256x3_S8x256x256x64_3_012_n_n_012_3_11164 : GatherDims S8x256x256x64 S8x256x256x3 S8x256x256x64 where
  offsetDims := [3]
  collapsedSliceDims := [0, 1, 2]
  operandBatchingDims := []
  startIndicesBatchingDims := []
  startIndexMap := [0, 1, 2]
  indexVectorDim := 3
  sliceSizes := ![1, 1, 1, 64]
  wf := gather_S8x256x256x64_S8x256x256x3_S8x256x256x64_3_012_n_n_012_3_11164_wf

abbrev win0_0 : Pipeline.Window sig grid0 :=
  Pipeline.Window.ofSpec (Memref.whole main_v59) S1x32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S1x32x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v101) S1x32x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v122) S1x32x256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v123) S1x32x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v124) S1x32x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v125) S1x32x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v126) S1x32x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v127) S1x32x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x256x256x2 : Shape := ⟨4, ![8, 256, 256, 2]⟩
abbrev S8x256x256x1 : Shape := ⟨4, ![8, 256, 256, 1]⟩
abbrev S8x256x256 : Shape := ⟨3, ![8, 256, 256]⟩
abbrev S_ : Shape := ⟨0, ![]⟩
abbrev S8x256x256x64 : Shape := ⟨4, ![8, 256, 256, 64]⟩
abbrev S8 : Shape := ⟨1, ![8]⟩
abbrev S8x1x1 : Shape := ⟨3, ![8, 1, 1]⟩
abbrev S8x256x256x3 : Shape := ⟨4, ![8, 256, 256, 3]⟩

abbrev nBuf : Space → Nat
  | .hbm => 207
  | .vmem => 0
  | .smem => 0
  | _ => 0

abbrev hbmTy0_0 (i : Nat) : BufTy := match i % 128 with
  | 0 => ⟨S8x64x256x256, .f32⟩
  | 1 => ⟨S8x256x256x2, .f32⟩
  | 2 => ⟨S8x256x256x1, .f32⟩
  | 3 => ⟨S8x256x256, .f32⟩
  | 4 => ⟨S_, .f32⟩
  | 5 => ⟨S8x256x256, .f32⟩
  | 6 => ⟨S8x256x256, .f32⟩
  | 7 => ⟨S_, .f32⟩
  | 8 => ⟨S8x256x256, .f32⟩
  | 9 => ⟨S8x256x256, .f32⟩
  | 10 => ⟨S_, .f32⟩
  | 11 => ⟨S8x256x256, .f32⟩
  | 12 => ⟨S8x256x256, .f32⟩
  | 13 => ⟨S8x256x256x1, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S8x256x256, .f32⟩
  | 25 => ⟨S8x256x256, .f32⟩
  | 26 => ⟨S8x256x256, .f32⟩
  | 27 => ⟨S8x256x256, .f32⟩
  | 28 => ⟨S_, .f32⟩
  | 29 => ⟨S8x256x256, .f32⟩
  | 30 => ⟨S8x256x256, .f32⟩
  | 31 => ⟨S_, .f32⟩
  | 32 => ⟨S8x256x256, .f32⟩
  | 33 => ⟨S8x256x256, .f32⟩
  | 34 => ⟨S_, .i32⟩
  | 35 => ⟨S_, .i32⟩
  | 36 => ⟨S_, .f32⟩
  | 37 => ⟨S8x256x256, .f32⟩
  | 38 => ⟨S8x256x256, .f32⟩
  | 39 => ⟨S_, .f32⟩
  | 40 => ⟨S8x256x256, .f32⟩
  | 41 => ⟨S8x256x256, .f32⟩
  | 42 => ⟨S8x256x256, .i32⟩
  | 43 => ⟨S_, .f32⟩
  | 44 => ⟨S8x256x256, .f32⟩
  | 45 => ⟨S8x256x256, .f32⟩
  | 46 => ⟨S_, .i32⟩
  | 47 => ⟨S_, .i32⟩
  | 48 => ⟨S_, .f32⟩
  | 49 => ⟨S8x256x256, .f32⟩
  | 50 => ⟨S8x256x256, .f32⟩
  | 51 => ⟨S_, .f32⟩
  | 52 => ⟨S8x256x256, .f32⟩
  | 53 => ⟨S8x256x256, .f32⟩
  | 54 => ⟨S8x256x256, .i32⟩
  | 55 => ⟨S_, .i32⟩
  | 56 => ⟨S_, .i32⟩
  | 57 => ⟨S_, .f32⟩
  | 58 => ⟨S8x256x256, .f32⟩
  | 59 => ⟨S8x256x256, .f32⟩
  | 60 => ⟨S_, .f32⟩
  | 61 => ⟨S8x256x256, .f32⟩
  | 62 => ⟨S8x256x256, .f32⟩
  | 63 => ⟨S8x256x256, .i32⟩
  | 64 => ⟨S_, .f32⟩
  | 65 => ⟨S8x256x256, .f32⟩
  | 66 => ⟨S8x256x256, .f32⟩
  | 67 => ⟨S_, .i32⟩
  | 68 => ⟨S_, .i32⟩
  | 69 => ⟨S_, .f32⟩
  | 70 => ⟨S8x256x256, .f32⟩
  | 71 => ⟨S8x256x256, .f32⟩
  | 72 => ⟨S_, .f32⟩
  | 73 => ⟨S8x256x256, .f32⟩
  | 74 => ⟨S8x256x256, .f32⟩
  | 75 => ⟨S8x256x256, .i32⟩
  | 76 => ⟨S8x256x256x64, .f32⟩
  | 77 => ⟨S8, .i32⟩
  | 78 => ⟨S8x1x1, .i32⟩
  | 79 => ⟨S_, .i32⟩
  | 80 => ⟨S8x1x1, .i32⟩
  | 81 => ⟨S8x1x1, .i1⟩
  | 82 => ⟨S_, .i32⟩
  | 83 => ⟨S8x1x1, .i32⟩
  | 84 => ⟨S8x1x1, .i32⟩
  | 85 => ⟨S8x1x1, .i32⟩
  | 86 => ⟨S_, .i32⟩
  | 87 => ⟨S8x256x256, .i32⟩
  | 88 => ⟨S8x256x256, .i1⟩
  | 89 => ⟨S_, .i32⟩
  | 90 => ⟨S8x256x256, .i32⟩
  | 91 => ⟨S8x256x256, .i32⟩
  | 92 => ⟨S8x256x256, .i32⟩
  | 93 => ⟨S_, .i32⟩
  | 94 => ⟨S8x256x256, .i32⟩
  | 95 => ⟨S8x256x256, .i1⟩
  | 96 => ⟨S_, .i32⟩
  | 97 => ⟨S8x256x256, .i32⟩
  | 98 => ⟨S8x256x256, .i32⟩
  | 99 => ⟨S8x256x256, .i32⟩
  | 100 => ⟨S8x256x256, .i32⟩
  | 101 => ⟨S8x256x256x1, .i32⟩
  | 102 => ⟨S8x256x256x1, .i32⟩
  | 103 => ⟨S8x256x256x1, .i32⟩
  | 104 => ⟨S8x256x256x3, .i32⟩
  | 105 => ⟨S8x256x256x64, .f32⟩
  | 106 => ⟨S8x256x256, .f32⟩
  | 107 => ⟨S8x256x256x1, .f32⟩
  | 108 => ⟨S8x256x256x64, .f32⟩
  | 109 => ⟨S8x256x256x64, .f32⟩
  | 110 => ⟨S_, .i32⟩
  | 111 => ⟨S8x1x1, .i32⟩
  | 112 => ⟨S8x1x1, .i1⟩
  | 113 => ⟨S_, .i32⟩
  | 114 => ⟨S8x1x1, .i32⟩
  | 115 => ⟨S8x1x1, .i32⟩
  | 116 => ⟨S8x1x1, .i32⟩
  | 117 => ⟨S_, .i32⟩
  | 118 => ⟨S8x256x256, .i32⟩
  | 119 => ⟨S8x256x256, .i1⟩
  | 120 => ⟨S_, .i32⟩
  | 121 => ⟨S8x256x256, .i32⟩
  | 122 => ⟨S8x256x256, .i32⟩
  | 123 => ⟨S8x256x256, .i32⟩
  | 124 => ⟨S_, .i32⟩
  | 125 => ⟨S8x256x256, .i32⟩
  | 126 => ⟨S8x256x256, .i1⟩
  | 127 => ⟨S_, .i32⟩
  | _ => ⟨S8x64x256x256, .f32⟩

abbrev hbmTy0_1 (i : Nat) : BufTy := match i % 128 with
  | 0 => ⟨S8x256x256, .i32⟩
  | 1 => ⟨S8x256x256, .i32⟩
  | 2 => ⟨S8x256x256, .i32⟩
  | 3 => ⟨S8x256x256, .i32⟩
  | 4 => ⟨S8x256x256x1, .i32⟩
  | 5 => ⟨S8x256x256x1, .i32⟩
  | 6 => ⟨S8x256x256x1, .i32⟩
  | 7 => ⟨S8x256x256x3, .i32⟩
  | 8 => ⟨S8x256x256x64, .f32⟩
  | 9 => ⟨S8x256x256, .f32⟩
  | 10 => ⟨S8x256x256x1, .f32⟩
  | 11 => ⟨S8x256x256x64, .f32⟩
  | 12 => ⟨S8x256x256x64, .f32⟩
  | 13 => ⟨S8x256x256x64, .f32⟩
  | 14 => ⟨S_, .i32⟩
  | 15 => ⟨S8x1x1, .i32⟩
  | 16 => ⟨S8x1x1, .i1⟩
  | 17 => ⟨S_, .i32⟩
  | 18 => ⟨S8x1x1, .i32⟩
  | 19 => ⟨S8x1x1, .i32⟩
  | 20 => ⟨S8x1x1, .i32⟩
  | 21 => ⟨S_, .i32⟩
  | 22 => ⟨S8x256x256, .i32⟩
  | 23 => ⟨S8x256x256, .i1⟩
  | 24 => ⟨S_, .i32⟩
  | 25 => ⟨S8x256x256, .i32⟩
  | 26 => ⟨S8x256x256, .i32⟩
  | 27 => ⟨S8x256x256, .i32⟩
  | 28 => ⟨S_, .i32⟩
  | 29 => ⟨S8x256x256, .i32⟩
  | 30 => ⟨S8x256x256, .i1⟩
  | 31 => ⟨S_, .i32⟩
  | 32 => ⟨S8x256x256, .i32⟩
  | 33 => ⟨S8x256x256, .i32⟩
  | 34 => ⟨S8x256x256, .i32⟩
  | 35 => ⟨S8x256x256, .i32⟩
  | 36 => ⟨S8x256x256x1, .i32⟩
  | 37 => ⟨S8x256x256x1, .i32⟩
  | 38 => ⟨S8x256x256x1, .i32⟩
  | 39 => ⟨S8x256x256x3, .i32⟩
  | 40 => ⟨S8x256x256x64, .f32⟩
  | 41 => ⟨S8x256x256, .f32⟩
  | 42 => ⟨S8x256x256x1, .f32⟩
  | 43 => ⟨S8x256x256x64, .f32⟩
  | 44 => ⟨S8x256x256x64, .f32⟩
  | 45 => ⟨S8x256x256x64, .f32⟩
  | 46 => ⟨S_, .i32⟩
  | 47 => ⟨S8x1x1, .i32⟩
  | 48 => ⟨S8x1x1, .i1⟩
  | 49 => ⟨S_, .i32⟩
  | 50 => ⟨S8x1x1, .i32⟩
  | 51 => ⟨S8x1x1, .i32⟩
  | 52 => ⟨S8x1x1, .i32⟩
  | 53 => ⟨S_, .i32⟩
  | 54 => ⟨S8x256x256, .i32⟩
  | 55 => ⟨S8x256x256, .i1⟩
  | 56 => ⟨S_, .i32⟩
  | 57 => ⟨S8x256x256, .i32⟩
  | 58 => ⟨S8x256x256, .i32⟩
  | 59 => ⟨S8x256x256, .i32⟩
  | 60 => ⟨S_, .i32⟩
  | 61 => ⟨S8x256x256, .i32⟩
  | 62 => ⟨S8x256x256, .i1⟩
  | 63 => ⟨S_, .i32⟩
  | 64 => ⟨S8x256x256, .i32⟩
  | 65 => ⟨S8x256x256, .i32⟩
  | 66 => ⟨S8x256x256, .i32⟩
  | 67 => ⟨S8x256x256, .i32⟩
  | 68 => ⟨S8x256x256x1, .i32⟩
  | 69 => ⟨S8x256x256x1, .i32⟩
  | 70 => ⟨S8x256x256x1, .i32⟩
  | 71 => ⟨S8x256x256x3, .i32⟩
  | 72 => ⟨S8x256x256x64, .f32⟩
  | 73 => ⟨S8x256x256, .f32⟩
  | 74 => ⟨S8x256x256x1, .f32⟩
  | 75 => ⟨S8x256x256x64, .f32⟩
  | 76 => ⟨S8x256x256x64, .f32⟩
  | 77 => ⟨S8x256x256x64, .f32⟩
  | 78 => ⟨S8x64x256x256, .f32⟩
  | _ => ⟨S8x64x256x256, .f32⟩

abbrev hbmTy (i : Nat) : BufTy := match i / 128 with
  | 0 => hbmTy0_0 i
  | 1 => hbmTy0_1 i
  | _ => ⟨S8x64x256x256, .f32⟩

abbrev bufTy : (tb : Table) → Fin (tcTables nBuf tb) → BufTy
  | .hbm, ⟨i, _⟩ => hbmTy i
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_c_10 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_v29 : Ref sig .tc := ⟨.hbm, 54, rfl⟩
abbrev main_c_11 : Ref sig .tc := ⟨.hbm, 55, rfl⟩
abbrev main_c_12 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v30 : Ref sig .tc := ⟨.hbm, 62, rfl⟩
abbrev main_v31 : Ref sig .tc := ⟨.hbm, 63, rfl⟩
abbrev main_cst_13 : Ref sig .tc := ⟨.hbm, 64, rfl⟩
abbrev main_v32 : Ref sig .tc := ⟨.hbm, 65, rfl⟩
abbrev main_v33 : Ref sig .tc := ⟨.hbm, 66, rfl⟩
abbrev main_c_14 : Ref sig .tc := ⟨.hbm, 67, rfl⟩
abbrev main_c_15 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_16 : Ref sig .tc := ⟨.hbm, 79, rfl⟩
abbrev main_v39 : Ref sig .tc := ⟨.hbm, 80, rfl⟩
abbrev main_v40 : Ref sig .tc := ⟨.hbm, 81, rfl⟩
abbrev main_c_17 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_18 : Ref sig .tc := ⟨.hbm, 86, rfl⟩
abbrev main_v44 : Ref sig .tc := ⟨.hbm, 87, rfl⟩
abbrev main_v45 : Ref sig .tc := ⟨.hbm, 88, rfl⟩
abbrev main_c_19 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_20 : Ref sig .tc := ⟨.hbm, 93, rfl⟩
abbrev main_v49 : Ref sig .tc := ⟨.hbm, 94, rfl⟩
abbrev main_v50 : Ref sig .tc := ⟨.hbm, 95, rfl⟩
abbrev main_c_21 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_22 : Ref sig .tc := ⟨.hbm, 110, rfl⟩
abbrev main_v64 : Ref sig .tc := ⟨.hbm, 111, rfl⟩
abbrev main_v65 : Ref sig .tc := ⟨.hbm, 112, rfl⟩
abbrev main_c_23 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_26 : Ref sig .tc := ⟨.hbm, 124, rfl⟩
abbrev main_v74 : Ref sig .tc := ⟨.hbm, 125, rfl⟩
abbrev main_v75 : Ref sig .tc := ⟨.hbm, 126, rfl⟩
abbrev main_c_27 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_28 : Ref sig .tc := ⟨.hbm, 142, rfl⟩
abbrev main_v90 : Ref sig .tc := ⟨.hbm, 143, rfl⟩
abbrev main_v91 : Ref sig .tc := ⟨.hbm, 144, rfl⟩
abbrev main_c_29 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_c_30 : Ref sig .tc := ⟨.hbm, 149, rfl⟩
abbrev main_v95 : Ref sig .tc := ⟨.hbm, 150, rfl⟩
abbrev main_v96 : Ref sig .tc := ⟨.hbm, 151, rfl⟩
abbrev main_c_31 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_c_32 : Ref sig .tc := ⟨.hbm, 156, rfl⟩
abbrev main_v100 : Ref sig .tc := ⟨.hbm, 157, rfl⟩
abbrev main_v101 : Ref sig .tc := ⟨.hbm, 158, rfl⟩
abbrev main_c_33 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_34 : Ref sig .tc := ⟨.hbm, 174, rfl⟩
abbrev main_v116 : Ref sig .tc := ⟨.hbm, 175, rfl⟩
abbrev main_v117 : Ref sig .tc := ⟨.hbm, 176, rfl⟩
abbrev main_c_35 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_36 : Ref sig .tc := ⟨.hbm, 181, rfl⟩
abbrev main_v121 : Ref sig .tc := ⟨.hbm, 182, rfl⟩
abbrev main_v122 : Ref sig .tc := ⟨.hbm, 183, rfl⟩
abbrev main_c_37 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_38 : Ref sig .tc := ⟨.hbm, 188, rfl⟩
abbrev main_v126 : Ref sig .tc := ⟨.hbm, 189, rfl⟩
abbrev main_v127 : Ref sig .tc := ⟨.hbm, 190, rfl⟩
abbrev main_c_39 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩

abbrev nD : Nat := 1
abbrev τ : Topo := Topo.v7x

variable {F : FTy → Type} [FloatOps F]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  bcast_S_S8x256x256 : S_.BroadcastsInDim S8x256x256 (![] : Fin 0 → Fin S8x256x256.rank)
  slices_S8x256x256x2_S8x256x256x1_0_0_0_1 : S8x256x256x2.Slices ![0, 0, 0, 1] S8x256x256x1
  transposes_S8x64x256x256_S8x256x256x64_0_2_3_1 : S8x64x256x256.Transposes [0, 2, 3, 1] S8x256x256x64
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x256x256_0_1_2 : S8x1x1.BroadcastsInDim S8x256x256 (![0, 1, 2] : Fin 3 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x1_S8x256x256x3_d3 : Shape.Concatenates [S8x256x256x1, S8x256x256x1, S8x256x256x1] S8x256x256x3 3
  bcast_S8x256x256x1_S8x256x256x64_0_1_2_3 : S8x256x256x1.BroadcastsInDim S8x256x256x64 (![0, 1, 2, 3] : Fin 4 → Fin S8x256x256x64.rank)
  transposes_S8x256x256x64_S8x64x256x256_0_3_1_2 : S8x256x256x64.Transposes [0, 3, 1, 2] S8x64x256x256
  gather_S8x256x256x64_S8x256x256x3_S8x256x256x64_3_012_n_n_012_3_11164_wf : GatherDims.WF S8x256x256x64 S8x256x256x3 S8x256x256x64 [3] [0, 1, 2] [] [0, 1, 2] [] 3 ![1, 1, 1, 64]

variable [Facts₀]

def gather_S8x256x256x64_S8x256x256x3_S8x256x256x64_3_012_n_n_012_3_11164 : GatherDims S8x256x256x64 S8x256x256x3 S8x256x256x64 where
  offsetDims := [3]
  collapsedSliceDims := [0, 1, 2]
  operandBatchingDims := []
  startIndicesBatchingDims := []
  startIndexMap := [0, 1, 2]
  indexVectorDim := 3
  sliceSizes := ![1, 1, 1, 64]
  wf := gather_S8x256x256x64_S8x256x256x3_S8x256x256x64_3_012_n_n_012_3_11164_wf

class Facts : Prop extends Facts₀ where

variable [Facts]
-- ==== Proof.CombineFrameBits.lean ====
/-
  The kernel's run around its one region, at the word level.

  The program computes on the host, from the image x [8,64,256,256] and the sampling grid [8,256,256,2], the four
  gathered corner arrays g00, g01, g10, g11 [8,256,256,64] and the four weight maps w00, w01, w10, w11 [8,256,256];
  one region, over an 8 × 8 grid of blocks of 32 rows, forms g00·w00 + g01·w01 + g10·w10 + g11·w11 block by block;
  one last host line moves the channel axis back. Here: the contents the region finds, the body's effect on one
  block, and the run of the whole program, which ends with both arguments as launched. None of it depends on how a
  float is read: the run, the blocks and the frame are the same at every reading of the float formats.
-/
import proofs.«108412_j11450382812072_2_alg».proof.Proof.Gen.Kernel.Launch
import proofs.«108412_j11450382812072_2_alg».proof.Proof.Gen.Kernel.Skeleton
import proofs.«108412_j11450382812072_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Before the region the host computes, from the two arguments, the four gathered corner arrays and the four
weight maps; the region combines them block by block; after it one line transposes the result. -/

/-- A core's buffer contents when the region is entered: the launch contents after every host line before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host lines, the region, one more host line: run from the launch contents it reaches the region
    at `V` and continues after it with the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The line after the region touches only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's nine arrays: its one result buffer is the transposed output. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data over `V` whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data over `V` whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data over `V` whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data over `V` whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data over `V` whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data over `V` whose body
    leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data over `V` whose body
    leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over `V`, a run that ends with every array of the region as the library computes it and every other
    buffer as the last host line leaves it ends, in particular, with both arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body

The body loads its eight input blocks whole, forms ((g00·w00 + g01·w01) + g10·w10) + g11·w11 with each weight map
spread along the channel axis, and stores the result over the whole output block. -/

/-- The whole block of a corner array, and of a weight map. -/
abbrev rG : Rect S1x32x256x64 := Rect.unit (s := S1x32x256x64) ![0, 0, 0, 0] S1x32x256x64.size inb_S1x32x256x64_S1x32x256x64_0_0_0_0
abbrev rW : Rect S1x32x256 := Rect.unit (s := S1x32x256) ![0, 0, 0] S1x32x256.size inb_S1x32x256_S1x32x256_0_0_0

/-- What the body leaves in the output's staging buffer, from the eight input blocks: its one store, over the whole block. -/
def out0_8 (x0 x1 x2 x3 : Vec F S1x32x256x64 .f32) (x4 x5 x6 x7 : Vec F S1x32x256 .f32) : Vec F S1x32x256x64 .f32 :=
  View.canon [⟨rG, k0_pay1 (k0_pay2 (View.ld x4 rW) (View.ld x5 rW) (View.ld x6 rW) (View.ld x0 rG) (View.ld x1 rG) (View.ld x2 rG))
    (k0_pay3 (View.ld x7 rW) (View.ld x3 rG))⟩]

/-- The one store covers the buffer. -/
theorem cover0_8 (p0 : Vec F S1x32x256x64 .f32) (y : S1x32x256x64.Idx) :
    ∃ pc ∈ ([⟨rG, p0⟩] : List (View.Piece (Elt F) S1x32x256x64 .f32)), y ∈ pc.1.set :=
  View.cover_of_tiled [⟨rG, p0⟩] S1x32x256x64.size (by rfl) y

set_option maxHeartbeats 4000000 in
/-- The body on whole staging buffers, the inputs' at contents `x0 … x7` and the output's at anything, runs to its end
    holding the inputs' as they were and the output's at `out0_8` of them. -/
theorem sound_kernel (c : Dev nD) (E : Set ℕ) (i : grid0.Coords)
    (arg2 : Memref sig .tc .vmem S1x32x256x64 .f32) (harg2 : arg2.IsWhole) (arg3 : Memref sig .tc .vmem S1x32x256x64 .f32) (harg3 : arg3.IsWhole) (arg4 : Memref sig .tc .vmem S1x32x256x64 .f32) (harg4 : arg4.IsWhole) (arg5 : Memref sig .tc .vmem S1x32x256x64 .f32) (harg5 : arg5.IsWhole)
    (arg6 : Memref sig .tc .vmem S1x32x256 .f32) (harg6 : arg6.IsWhole) (arg7 : Memref sig .tc .vmem S1x32x256 .f32) (harg7 : arg7.IsWhole) (arg8 : Memref sig .tc .vmem S1x32x256 .f32) (harg8 : arg8.IsWhole) (arg9 : Memref sig .tc .vmem S1x32x256 .f32) (harg9 : arg9.IsWhole)
    (arg10 : Memref sig .tc .vmem S1x32x256x64 .f32) (harg10 : arg10.IsWhole)
    (x0 x1 x2 x3 : Vec F S1x32x256x64 .f32) (x4 x5 x6 x7 : Vec F S1x32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out0_8 x0 x1 x2 x3 x4 x5 x6 x7)) -∗ K ⟨⟩))
      ⊢ wp frame (wpE (defs₀ (F := F)) Variants.none c none) E
          (cc0__combine_kernel i arg2 harg2 arg3 harg3 arg4 harg4 arg5 harg5 arg6 harg6 arg7 harg7 arg8 harg8 arg9 harg9 arg10 harg10) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- On core `c`: the arrays as the region finds them; after the body at point `t` each input's buffer at its block and the
    output's at `out0_8` of the input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    region at what the library computes from the proof data and every other buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen.Combine

end
-- ==== Proof.CombineFrameIdeal.lean ====
/-
  The idealized kernel's run around its one region.

  The program computes on the host, from the image x [8,64,256,256] and the sampling grid [8,256,256,2], the four
  gathered corner arrays g00, g01, g10, g11 [8,256,256,64] and the four weight maps w00, w01, w10, w11 [8,256,256];
  one region, over an 8 × 8 grid of blocks of 32 rows, forms g00·w00 + g01·w01 + g10·w10 + g11·w11 block by block;
  one last host line moves the channel axis back. Here: the contents the region finds, the body's effect on one
  block, and the run of the whole program, which ends with both arguments as launched.
-/
import proofs.«108412_j11450382812072_2_alg».proof.Proof.Gen.KernelIdeal.Launch
import proofs.«108412_j11450382812072_2_alg».proof.Proof.Gen.KernelIdeal.Skeleton
import proofs.«108412_j11450382812072_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

Before the region the host computes, from the two arguments, the four gathered corner arrays and the four
weight maps; the region combines them block by block; after it one line transposes the result. -/

/-- A core's buffer contents when the region is entered: the launch contents after every host line before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host lines, the region, one more host line: run from the launch contents it reaches the region
    at `V` and continues after it with the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The line after the region touches only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's nine arrays: its one result buffer is the transposed output. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data over `V` whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data over `V` whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data over `V` whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data over `V` whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data over `V` whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data over `V` whose body
    leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data over `V` whose body
    leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data over `V`, a run that ends with every array of the region as the library computes it and every other
    buffer as the last host line leaves it ends, in particular, with both arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body

The body loads its eight input blocks whole, forms ((g00·w00 + g01·w01) + g10·w10) + g11·w11 with each weight map
spread along the channel axis, and stores the result over the whole output block. -/

/-- The whole block of a corner array, and of a weight map. -/
abbrev rG : Rect S1x32x256x64 := Rect.unit (s := S1x32x256x64) ![0, 0, 0, 0] S1x32x256x64.size inb_S1x32x256x64_S1x32x256x64_0_0_0_0
abbrev rW : Rect S1x32x256 := Rect.unit (s := S1x32x256) ![0, 0, 0] S1x32x256.size inb_S1x32x256_S1x32x256_0_0_0

/-- What the body leaves in the output's staging buffer, from the eight input blocks: its one store, over the whole block. -/
def out0_8 (x0 x1 x2 x3 : Vec F S1x32x256x64 .f32) (x4 x5 x6 x7 : Vec F S1x32x256 .f32) : Vec F S1x32x256x64 .f32 :=
  View.canon [⟨rG, k0_pay1 (k0_pay2 (View.ld x4 rW) (View.ld x5 rW) (View.ld x6 rW) (View.ld x0 rG) (View.ld x1 rG) (View.ld x2 rG))
    (k0_pay3 (View.ld x7 rW) (View.ld x3 rG))⟩]

/-- The one store covers the buffer. -/
theorem cover0_8 (p0 : Vec F S1x32x256x64 .f32) (y : S1x32x256x64.Idx) :
    ∃ pc ∈ ([⟨rG, p0⟩] : List (View.Piece (Elt F) S1x32x256x64 .f32)), y ∈ pc.1.set :=
  View.cover_of_tiled [⟨rG, p0⟩] S1x32x256x64.size (by rfl) y

set_option maxHeartbeats 4000000 in
/-- The body on whole staging buffers, the inputs' at contents `x0 … x7` and the output's at anything, runs to its end
    holding the inputs' as they were and the output's at `out0_8` of them. -/
theorem sound_kernel (c : Dev nD) (E : Set ℕ) (i : grid0.Coords)
    (arg2 : Memref sig .tc .vmem S1x32x256x64 .f32) (harg2 : arg2.IsWhole) (arg3 : Memref sig .tc .vmem S1x32x256x64 .f32) (harg3 : arg3.IsWhole) (arg4 : Memref sig .tc .vmem S1x32x256x64 .f32) (harg4 : arg4.IsWhole) (arg5 : Memref sig .tc .vmem S1x32x256x64 .f32) (harg5 : arg5.IsWhole)
    (arg6 : Memref sig .tc .vmem S1x32x256 .f32) (harg6 : arg6.IsWhole) (arg7 : Memref sig .tc .vmem S1x32x256 .f32) (harg7 : arg7.IsWhole) (arg8 : Memref sig .tc .vmem S1x32x256 .f32) (harg8 : arg8.IsWhole) (arg9 : Memref sig .tc .vmem S1x32x256 .f32) (harg9 : arg9.IsWhole)
    (arg10 : Memref sig .tc .vmem S1x32x256x64 .f32) (harg10 : arg10.IsWhole)
    (x0 x1 x2 x3 : Vec F S1x32x256x64 .f32) (x4 x5 x6 x7 : Vec F S1x32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out0_8 x0 x1 x2 x3 x4 x5 x6 x7)) -∗ K ⟨⟩))
      ⊢ wp frame (wpE (defs₀ (F := F)) Variants.none c none) E
          (cc0__combine_kernel i arg2 harg2 arg3 harg3 arg4 harg4 arg5 harg5 arg6 harg6 arg7 harg7 arg8 harg8 arg9 harg9 arg10 harg10) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- On core `c`: the arrays as the region finds them; after the body at point `t` each input's buffer at its block and the
    output's at `out0_8` of the input blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    region at what the library computes from the proof data and every other buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end without a fault and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen.Combine

end
-- ==== Proof.LibSpreadLast.lean ====
/-
  A rank-3 array spread along a new last axis, read at an index.

  An array w of shape [a, b, c] is given a trailing unit axis and then repeated d times along it, so that the result
  of shape [a, b, c, d] holds, at (i, j, k, l), the entry w (i, j, k) whatever l is. Two spellings of this occur: a
  shape cast to [a, b, c, 1] followed by a vector broadcast, and two `broadcast_in_dim`s (dims [0, 1, 2], then
  [0, 1, 2, 3]). This is how a per-pixel weight map meets a per-pixel, per-channel array.
-/
import Idealize.ShloMosaic.Lib.ValueIdx
import Idealize.ShloMosaic.Lib.Pipeline.Value

noncomputable section

namespace Cert.LibSpreadLast

open Idealize.ShloMosaic Idealize.ShloMosaic.ValueIdx

/-- A coordinate below an extent that is 1 is 0: the two branches of a broadcast's read agree. -/
theorem val_eq_ite {n : Nat} (i : Fin n) : i.val = if n = 1 then 0 else i.val := by
  split_ifs with h
  · have := i.isLt; omega
  · rfl

/-- [a, b, c] recast as [a, b, c, 1] and broadcast to [a, b, c, d], at (i, j, k, l), is the array at (i, j, k). -/
theorem spread_last_apply {α : Type} {n0 n1 n2 n3 : Nat} (w : (⟨3, ![n0, n1, n2]⟩ : Shape).Idx → α)
    (h1 : (⟨3, ![n0, n1, n2]⟩ : Shape).ShapeCasts ⟨4, ![n0, n1, n2, 1]⟩)
    (h2 : (⟨4, ![n0, n1, n2, 1]⟩ : Shape).Broadcasts ⟨4, ![n0, n1, n2, n3]⟩)
    (i : Fin n0) (j : Fin n1) (k : Fin n2) (l : Fin n3) :
    broadcastTo ⟨4, ![n0, n1, n2, n3]⟩ (shapeCast ⟨4, ![n0, n1, n2, 1]⟩ w h1) h2 (ix4 i j k l) = w (ix3 i j k) := by
  rw [broadcastTo_apply _ h2 (ix4 i j k l) (ix4 i j k (0 : Fin 1)) ?_]
  · refine shapeCast_apply w h1 (ix4 i j k (0 : Fin 1)) (ix3 i j k) ?_
    rw [Shape.rowMajor_val_three, Shape.rowMajor_val_four]
    show ((i.val * n1 + j.val) * n2 + k.val) = (((i.val * n1 + j.val) * n2 + k.val) * 1 + 0)
    omega
  · intro a
    match a with
    | ⟨0, _⟩ => exact val_eq_ite i
    | ⟨1, _⟩ => exact val_eq_ite j
    | ⟨2, _⟩ => exact val_eq_ite k
    | ⟨3, _⟩ => rfl

/-- [a, b, c] broadcast in dims [0, 1, 2] to [a, b, c, 1] and then in dims [0, 1, 2, 3] to [a, b, c, d], at (i, j, k, l),
    is the array at (i, j, k). -/
theorem bcast_last_apply {α : Type} {n0 n1 n2 n3 : Nat} (w : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (i : Fin n0) (j : Fin n1) (k : Fin n2) (l : Fin n3) :
    broadcastInDim ⟨4, ![n0, n1, n2, n3]⟩ (![0, 1, 2, 3] : Fin 4 → Fin 4) h2
      (broadcastInDim ⟨4, ![n0, n1, n2, 1]⟩ (![0, 1, 2] : Fin 3 → Fin 4) h1 w) (ix4 i j k l) = w (ix3 i j k) := by
  rw [broadcastInDim_apply _ h2 _ (ix4 i j k l) (ix4 i j k (0 : Fin 1)) ?_]
  · refine broadcastInDim_apply _ h1 w (ix4 i j k (0 : Fin 1)) (ix3 i j k) ?_
    intro a
    match a with
    | ⟨0, _⟩ => exact val_eq_ite i
    | ⟨1, _⟩ => exact val_eq_ite j
    | ⟨2, _⟩ => exact val_eq_ite k
  · intro a
    match a with
    | ⟨0, _⟩ => exact val_eq_ite i
    | ⟨1, _⟩ => exact val_eq_ite j
    | ⟨2, _⟩ => exact val_eq_ite k
    | ⟨3, _⟩ => rfl

end Cert.LibSpreadLast

end
-- ==== Proof.CombineSpec.lean ====
/-
  The weighted combine of four corner arrays: the specification both programs meet.

  For corner arrays g00, g01, g10, g11 of shape [n, h, w, c] and weight maps w00, w01, w10, w11 of shape [n, h, w], the
  combine holds at (i, j, k, l)
      ((g00·w00 + g01·w01) + g10·w10) + g11·w11,
  each g read at (i, j, k, l) and each weight at (i, j, k), on the extended reals, summed in this order. Both programs
  form exactly this expression, so no law of arithmetic is needed to join them: only that each program's way of
  spreading a weight map along the channel axis reads the map at the first three coordinates.
-/
import proofs.«108412_j11450382812072_2_alg».proof.Proof.LibSpreadLast
import Idealize.ShloMosaic.PureOps.Ideal

noncomputable section

namespace Cert.Combine

open Idealize.ShloMosaic Idealize.ShloMosaic.ValueIdx

/-- The combine, index by index. -/
def combine {n0 n1 n2 n3 : Nat} (g00 g01 g10 g11 : FVec Ideal ⟨4, ![n0, n1, n2, n3]⟩ .f32)
    (w00 w01 w10 w11 : FVec Ideal ⟨3, ![n0, n1, n2]⟩ .f32) : FVec Ideal ⟨4, ![n0, n1, n2, n3]⟩ .f32 :=
  fun p => ((g00 p * w00 (ix3 (p 0) (p 1) (p 2)) + g01 p * w01 (ix3 (p 0) (p 1) (p 2)))
    + g10 p * w10 (ix3 (p 0) (p 1) (p 2))) + g11 p * w11 (ix3 (p 0) (p 1) (p 2))

theorem combine_apply {n0 n1 n2 n3 : Nat} (g00 g01 g10 g11 : FVec Ideal ⟨4, ![n0, n1, n2, n3]⟩ .f32)
    (w00 w01 w10 w11 : FVec Ideal ⟨3, ![n0, n1, n2]⟩ .f32) (i : Fin n0) (j : Fin n1) (k : Fin n2) (l : Fin n3) :
    combine g00 g01 g10 g11 w00 w01 w10 w11 (ix4 i j k l)
      = ((g00 (ix4 i j k l) * w00 (ix3 i j k) + g01 (ix4 i j k l) * w01 (ix3 i j k))
          + g10 (ix4 i j k l) * w10 (ix3 i j k)) + g11 (ix4 i j k l) * w11 (ix3 i j k) := rfl

/-- Two combines agree at two indices once their eight reads agree there: the corner arrays at the indices, the
    weight maps at the indices' first three coordinates. (How a block of the combine of whole arrays is the combine of
    the blocks.) -/
theorem combine_congr {n0 n1 n2 n3 k0 k1 k2 k3 : Nat}
    (g00 g01 g10 g11 : FVec Ideal ⟨4, ![n0, n1, n2, n3]⟩ .f32) (w00 w01 w10 w11 : FVec Ideal ⟨3, ![n0, n1, n2]⟩ .f32)
    (G00 G01 G10 G11 : FVec Ideal ⟨4, ![k0, k1, k2, k3]⟩ .f32) (W00 W01 W10 W11 : FVec Ideal ⟨3, ![k0, k1, k2]⟩ .f32)
    (p : (⟨4, ![n0, n1, n2, n3]⟩ : Shape).Idx) (q : (⟨4, ![k0, k1, k2, k3]⟩ : Shape).Idx)
    (h0 : g00 p = G00 q) (h1 : g01 p = G01 q) (h2 : g10 p = G10 q) (h3 : g11 p = G11 q)
    (h4 : w00 (ix3 (p 0) (p 1) (p 2)) = W00 (ix3 (q 0) (q 1) (q 2)))
    (h5 : w01 (ix3 (p 0) (p 1) (p 2)) = W01 (ix3 (q 0) (q 1) (q 2)))
    (h6 : w10 (ix3 (p 0) (p 1) (p 2)) = W10 (ix3 (q 0) (q 1) (q 2)))
    (h7 : w11 (ix3 (p 0) (p 1) (p 2)) = W11 (ix3 (q 0) (q 1) (q 2))) :
    combine g00 g01 g10 g11 w00 w01 w10 w11 p = combine G00 G01 G10 G11 W00 W01 W10 W11 q := by
  unfold combine
  rw [h0, h1, h2, h3, h4, h5, h6, h7]

/-- With each weight map recast to [n, h, w, 1] and broadcast along the channels (a vector kernel's spelling), the
    sum of the four products is the combine. -/
theorem combine_of_spread {n0 n1 n2 n3 : Nat} (g00 g01 g10 g11 : FVec Ideal ⟨4, ![n0, n1, n2, n3]⟩ .f32)
    (w00 w01 w10 w11 : FVec Ideal ⟨3, ![n0, n1, n2]⟩ .f32)
    (h1 : (⟨3, ![n0, n1, n2]⟩ : Shape).ShapeCasts ⟨4, ![n0, n1, n2, 1]⟩)
    (h2 : (⟨4, ![n0, n1, n2, 1]⟩ : Shape).Broadcasts ⟨4, ![n0, n1, n2, n3]⟩) :
    addf (F := Ideal) (addf (F := Ideal) (addf (F := Ideal)
        (mulf (F := Ideal) g00 (broadcastTo ⟨4, ![n0, n1, n2, n3]⟩ (shapeCast ⟨4, ![n0, n1, n2, 1]⟩ w00 h1) h2))
        (mulf (F := Ideal) g01 (broadcastTo ⟨4, ![n0, n1, n2, n3]⟩ (shapeCast ⟨4, ![n0, n1, n2, 1]⟩ w01 h1) h2)))
        (mulf (F := Ideal) g10 (broadcastTo ⟨4, ![n0, n1, n2, n3]⟩ (shapeCast ⟨4, ![n0, n1, n2, 1]⟩ w10 h1) h2)))
        (mulf (F := Ideal) g11 (broadcastTo ⟨4, ![n0, n1, n2, n3]⟩ (shapeCast ⟨4, ![n0, n1, n2, 1]⟩ w11 h1) h2))
      = combine g00 g01 g10 g11 w00 w01 w10 w11 := by
  funext p
  obtain ⟨i, j, k, l, rfl⟩ : ∃ (i : Fin n0) (j : Fin n1) (k : Fin n2) (l : Fin n3), p = ix4 i j k l :=
    ⟨p 0, p 1, p 2, p 3, eq_ix4 p⟩
  simp only [addf_apply, mulf_apply, Cert.LibSpreadLast.spread_last_apply, combine_apply]

/-- With each weight map broadcast in dims [0, 1, 2] and then [0, 1, 2, 3] (the host's spelling), the sum of the four
    products is the combine. -/
theorem combine_of_bcast {n0 n1 n2 n3 : Nat} (g00 g01 g10 g11 : FVec Ideal ⟨4, ![n0, n1, n2, n3]⟩ .f32)
    (w00 w01 w10 w11 : FVec Ideal ⟨3, ![n0, n1, n2]⟩ .f32)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    addf (F := Ideal) (addf (F := Ideal) (addf (F := Ideal)
        (mulf (F := Ideal) g00 (broadcastInDim ⟨4, ![n0, n1, n2, n3]⟩ (![0, 1, 2, 3] : Fin 4 → Fin 4) h2 (broadcastInDim ⟨4, ![n0, n1, n2, 1]⟩ (![0, 1, 2] : Fin 3 → Fin 4) h1 w00)))
        (mulf (F := Ideal) g01 (broadcastInDim ⟨4, ![n0, n1, n2, n3]⟩ (![0, 1, 2, 3] : Fin 4 → Fin 4) h2 (broadcastInDim ⟨4, ![n0, n1, n2, 1]⟩ (![0, 1, 2] : Fin 3 → Fin 4) h1 w01))))
        (mulf (F := Ideal) g10 (broadcastInDim ⟨4, ![n0, n1, n2, n3]⟩ (![0, 1, 2, 3] : Fin 4 → Fin 4) h2 (broadcastInDim ⟨4, ![n0, n1, n2, 1]⟩ (![0, 1, 2] : Fin 3 → Fin 4) h1 w10))))
        (mulf (F := Ideal) g11 (broadcastInDim ⟨4, ![n0, n1, n2, n3]⟩ (![0, 1, 2, 3] : Fin 4 → Fin 4) h2 (broadcastInDim ⟨4, ![n0, n1, n2, 1]⟩ (![0, 1, 2] : Fin 3 → Fin 4) h1 w11)))
      = combine g00 g01 g10 g11 w00 w01 w10 w11 := by
  funext p
  obtain ⟨i, j, k, l, rfl⟩ : ∃ (i : Fin n0) (j : Fin n1) (k : Fin n2) (l : Fin n3), p = ix4 i j k l :=
    ⟨p 0, p 1, p 2, p 3, eq_ix4 p⟩
  simp only [addf_apply, mulf_apply, Cert.LibSpreadLast.bcast_last_apply, combine_apply]

end Cert.Combine

end
-- ==== Proof.CombineValue.lean ====
/-
  The idealized kernel's result as one function of what the region finds.

  At each of the 64 grid points (n, hb) the body forms the combine of its eight blocks: rows 32·hb … 32·hb + 31 of image
  n of each corner array, and the same rows of each weight map. All nine windows move together, so what the point writes
  back is that block of the combine of the eight WHOLE arrays; the 64 blocks tile the output, so after the region the
  output array is the combine everywhere; the last host line transposes it to channels-first.
-/
import proofs.«108412_j11450382812072_2_alg».proof.Proof.CombineFrameIdeal
import proofs.«108412_j11450382812072_2_alg».proof.Proof.CombineSpec
import Idealize.ShloMosaic.Lib.Pipeline.Value
import Idealize.ShloMosaic.Lib.ValueIdx

set_option maxRecDepth 16384

noncomputable section

namespace Cert.KernelIdeal.Gen.Combine

open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroG : (![0, 0, 0, 0] : Fin 4 → Nat) = fun _ => 0 := funext fun a => by fin_cases a <;> rfl
theorem zeroW : (![0, 0, 0] : Fin 3 → Nat) = fun _ => 0 := funext fun a => by fin_cases a <;> rfl

/-- The output array after the region: the combine of the four corner arrays and the four weight maps the region finds. -/
def wholeCombine (c : Dev nD) : S8x256x256x64.Idx → EReal :=
  Cert.Combine.combine (n0 := 8) (n1 := 256) (n2 := 256) (n3 := 64) (V m c main_v59) (V m c main_v80) (V m c main_v101) (V m c main_v122) (V m c main_v123) (V m c main_v124) (V m c main_v125) (V m c main_v126)

/-- On one block the body's arithmetic is the combine of the block's eight pieces: the identity recasts drop out, and
    each weight piece recast to [1, 32, 256, 1] and broadcast along the channels reads the piece at the pixel. -/
theorem payload_eq (g0 g1 g2 g3 : Vec Ideal S1x32x256x64 .f32) (w0 w1 w2 w3 : Vec Ideal S1x32x256 .f32) :
    k0_pay1 (F := Ideal) (k0_pay2 (F := Ideal) w0 w1 w2 g0 g1 g2) (k0_pay3 (F := Ideal) w3 g3)
      = Cert.Combine.combine (n0 := 1) (n1 := 32) (n2 := 256) (n3 := 64) g0 g1 g2 g3 w0 w1 w2 w3 := by
  unfold k0_pay1 k0_pay2 k0_pay3
  simp only [shapeCast_self]
  exact Cert.Combine.combine_of_spread (n0 := 1) (n1 := 32) (n2 := 256) (n3 := 64) g0 g1 g2 g3 w0 w1 w2 w3 _ _

/-- Over the grid: every input window sits at the output window's block on each axis it has, and the output's block
    indices are (n, hb, 0, 0) with n, hb ≤ 7. -/
theorem windows_aligned : ∀ t : Fin cfg0.N, win0_0.index t (0 : Fin 4) = win0_8.index t (0 : Fin 4)
    ∧ win0_0.index t (1 : Fin 4) = win0_8.index t (1 : Fin 4)
    ∧ win0_0.index t (2 : Fin 4) = win0_8.index t (2 : Fin 4)
    ∧ win0_0.index t (3 : Fin 4) = win0_8.index t (3 : Fin 4)
    ∧ win0_1.index t (0 : Fin 4) = win0_8.index t (0 : Fin 4)
    ∧ win0_1.index t (1 : Fin 4) = win0_8.index t (1 : Fin 4)
    ∧ win0_1.index t (2 : Fin 4) = win0_8.index t (2 : Fin 4)
    ∧ win0_1.index t (3 : Fin 4) = win0_8.index t (3 : Fin 4)
    ∧ win0_2.index t (0 : Fin 4) = win0_8.index t (0 : Fin 4)
    ∧ win0_2.index t (1 : Fin 4) = win0_8.index t (1 : Fin 4)
    ∧ win0_2.index t (2 : Fin 4) = win0_8.index t (2 : Fin 4)
    ∧ win0_2.index t (3 : Fin 4) = win0_8.index t (3 : Fin 4)
    ∧ win0_3.index t (0 : Fin 4) = win0_8.index t (0 : Fin 4)
    ∧ win0_3.index t (1 : Fin 4) = win0_8.index t (1 : Fin 4)
    ∧ win0_3.index t (2 : Fin 4) = win0_8.index t (2 : Fin 4)
    ∧ win0_3.index t (3 : Fin 4) = win0_8.index t (3 : Fin 4)
    ∧ win0_4.index t (0 : Fin 3) = win0_8.index t (0 : Fin 4)
    ∧ win0_4.index t (1 : Fin 3) = win0_8.index t (1 : Fin 4)
    ∧ win0_4.index t (2 : Fin 3) = win0_8.index t (2 : Fin 4)
    ∧ win0_5.index t (0 : Fin 3) = win0_8.index t (0 : Fin 4)
    ∧ win0_5.index t (1 : Fin 3) = win0_8.index t (1 : Fin 4)
    ∧ win0_5.index t (2 : Fin 3) = win0_8.index t (2 : Fin 4)
    ∧ win0_6.index t (0 : Fin 3) = win0_8.index t (0 : Fin 4)
    ∧ win0_6.index t (1 : Fin 3) = win0_8.index t (1 : Fin 4)
    ∧ win0_6.index t (2 : Fin 3) = win0_8.index t (2 : Fin 4)
    ∧ win0_7.index t (0 : Fin 3) = win0_8.index t (0 : Fin 4)
    ∧ win0_7.index t (1 : Fin 3) = win0_8.index t (1 : Fin 4)
    ∧ win0_7.index t (2 : Fin 3) = win0_8.index t (2 : Fin 4)
    ∧ win0_8.index t (0 : Fin 4) ≤ 7
    ∧ win0_8.index t (1 : Fin 4) ≤ 7
    ∧ win0_8.index t (2 : Fin 4) = 0
    ∧ win0_8.index t (3 : Fin 4) = 0 :=
  (by decide +kernel : ∀ t : Fin grid0.N, _)

/-- Every block (n, hb) of the output is some grid point's. -/
theorem every_block : ∀ (q0 : Fin 8) (q1 : Fin 8), ∃ t : Fin cfg0.N, win0_8.index t = ![q0.val, q1.val, 0, 0] :=
  (by decide +kernel : ∀ (q0 : Fin 8) (q1 : Fin 8), ∃ t : Fin grid0.N, win0_8.index t = ![q0.val, q1.val, 0, 0])

/-- On one block, for any eight pieces: the body's one store over the whole block leaves the combine of the pieces. -/
theorem block_eq (x0 x1 x2 x3 : Vec Ideal S1x32x256x64 .f32) (x4 x5 x6 x7 : Vec Ideal S1x32x256 .f32) :
    out0_8 (F := Ideal) x0 x1 x2 x3 x4 x5 x6 x7
      = Cert.Combine.combine (n0 := 1) (n1 := 32) (n2 := 256) (n3 := 64) x0 x1 x2 x3 x4 x5 x6 x7 := by
  unfold out0_8
  rw [View.canon_unit_zero zeroG]
  simp only [View.ld_unit_zero (S := S1x32x256x64) zeroG, View.ld_unit_zero (S := S1x32x256) zeroW]
  exact payload_eq x0 x1 x2 x3 x4 x5 x6 x7

/-- For ANY eight whole arrays: the combine of their blocks at grid point `t` is block `t` of their combine. All nine
    windows sit at the same block (n, hb) on the axes they have, so a block's entry (a, r, q, k) reads every corner array at
    (n + a, 32·hb + r, q, k) and every weight map at (n + a, 32·hb + r, q). -/
theorem block_of_whole (A0 A1 A2 A3 : S8x256x256x64.Idx → EReal) (A4 A5 A6 A7 : S8x256x256.Idx → EReal) (t : Fin cfg0.N) :
    (cfg0.win 8).cut (grid0.coords t)
      (Cert.Combine.combine (n0 := 1) (n1 := 32) (n2 := 256) (n3 := 64)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7))
      = ((cfg0.win 8).blk t).view.read (Elt Ideal)
          (Cert.Combine.combine (n0 := 8) (n1 := 256) (n2 := 256) (n3 := 64) A0 A1 A2 A3 A4 A5 A6 A7) := by
  obtain ⟨f0, f1, f2, f3, f4, f5, f6, f7, f8, f9, f10, f11, f12, f13, f14, f15, f16, f17, f18, f19, f20, f21, f22, f23, f24, f25, f26, f27, f28, f29, f30, f31⟩ := windows_aligned t
  funext y
  have e0 : ((cfg0.win 0).blk t).view.emb y = ((cfg0.win 8).blk t).view.emb y := by
    funext a; apply Fin.ext
    match a with
    | ⟨0, _⟩ => show win0_0.index t (0 : Fin 4) * 1 + 1 * (y 0).val = win0_8.index t (0 : Fin 4) * 1 + 1 * (y 0).val; omega
    | ⟨1, _⟩ => show win0_0.index t (1 : Fin 4) * 32 + 1 * (y 1).val = win0_8.index t (1 : Fin 4) * 32 + 1 * (y 1).val; omega
    | ⟨2, _⟩ => show win0_0.index t (2 : Fin 4) * 256 + 1 * (y 2).val = win0_8.index t (2 : Fin 4) * 256 + 1 * (y 2).val; omega
    | ⟨3, _⟩ => show win0_0.index t (3 : Fin 4) * 64 + 1 * (y 3).val = win0_8.index t (3 : Fin 4) * 64 + 1 * (y 3).val; omega
  have e1 : ((cfg0.win 1).blk t).view.emb y = ((cfg0.win 8).blk t).view.emb y := by
    funext a; apply Fin.ext
    match a with
    | ⟨0, _⟩ => show win0_1.index t (0 : Fin 4) * 1 + 1 * (y 0).val = win0_8.index t (0 : Fin 4) * 1 + 1 * (y 0).val; omega
    | ⟨1, _⟩ => show win0_1.index t (1 : Fin 4) * 32 + 1 * (y 1).val = win0_8.index t (1 : Fin 4) * 32 + 1 * (y 1).val; omega
    | ⟨2, _⟩ => show win0_1.index t (2 : Fin 4) * 256 + 1 * (y 2).val = win0_8.index t (2 : Fin 4) * 256 + 1 * (y 2).val; omega
    | ⟨3, _⟩ => show win0_1.index t (3 : Fin 4) * 64 + 1 * (y 3).val = win0_8.index t (3 : Fin 4) * 64 + 1 * (y 3).val; omega
  have e2 : ((cfg0.win 2).blk t).view.emb y = ((cfg0.win 8).blk t).view.emb y := by
    funext a; apply Fin.ext
    match a with
    | ⟨0, _⟩ => show win0_2.index t (0 : Fin 4) * 1 + 1 * (y 0).val = win0_8.index t (0 : Fin 4) * 1 + 1 * (y 0).val; omega
    | ⟨1, _⟩ => show win0_2.index t (1 : Fin 4) * 32 + 1 * (y 1).val = win0_8.index t (1 : Fin 4) * 32 + 1 * (y 1).val; omega
    | ⟨2, _⟩ => show win0_2.index t (2 : Fin 4) * 256 + 1 * (y 2).val = win0_8.index t (2 : Fin 4) * 256 + 1 * (y 2).val; omega
    | ⟨3, _⟩ => show win0_2.index t (3 : Fin 4) * 64 + 1 * (y 3).val = win0_8.index t (3 : Fin 4) * 64 + 1 * (y 3).val; omega
  have e3 : ((cfg0.win 3).blk t).view.emb y = ((cfg0.win 8).blk t).view.emb y := by
    funext a; apply Fin.ext
    match a with
    | ⟨0, _⟩ => show win0_3.index t (0 : Fin 4) * 1 + 1 * (y 0).val = win0_8.index t (0 : Fin 4) * 1 + 1 * (y 0).val; omega
    | ⟨1, _⟩ => show win0_3.index t (1 : Fin 4) * 32 + 1 * (y 1).val = win0_8.index t (1 : Fin 4) * 32 + 1 * (y 1).val; omega
    | ⟨2, _⟩ => show win0_3.index t (2 : Fin 4) * 256 + 1 * (y 2).val = win0_8.index t (2 : Fin 4) * 256 + 1 * (y 2).val; omega
    | ⟨3, _⟩ => show win0_3.index t (3 : Fin 4) * 64 + 1 * (y 3).val = win0_8.index t (3 : Fin 4) * 64 + 1 * (y 3).val; omega
  have e4 : ((cfg0.win 4).blk t).view.emb (ix3 (n0 := 1) (n1 := 32) (n2 := 256) (y 0) (y 1) (y 2)) = (ix3 (n0 := 8) (n1 := 256) (n2 := 256) ((((cfg0.win 8).blk t).view.emb y) 0) ((((cfg0.win 8).blk t).view.emb y) 1) ((((cfg0.win 8).blk t).view.emb y) 2)) := by
    funext a; apply Fin.ext
    match a with
    | ⟨0, _⟩ => show win0_4.index t (0 : Fin 3) * 1 + 1 * (y 0).val = win0_8.index t (0 : Fin 4) * 1 + 1 * (y 0).val; omega
    | ⟨1, _⟩ => show win0_4.index t (1 : Fin 3) * 32 + 1 * (y 1).val = win0_8.index t (1 : Fin 4) * 32 + 1 * (y 1).val; omega
    | ⟨2, _⟩ => show win0_4.index t (2 : Fin 3) * 256 + 1 * (y 2).val = win0_8.index t (2 : Fin 4) * 256 + 1 * (y 2).val; omega
  have e5 : ((cfg0.win 5).blk t).view.emb (ix3 (n0 := 1) (n1 := 32) (n2 := 256) (y 0) (y 1) (y 2)) = (ix3 (n0 := 8) (n1 := 256) (n2 := 256) ((((cfg0.win 8).blk t).view.emb y) 0) ((((cfg0.win 8).blk t).view.emb y) 1) ((((cfg0.win 8).blk t).view.emb y) 2)) := by
    funext a; apply Fin.ext
    match a with
    | ⟨0, _⟩ => show win0_5.index t (0 : Fin 3) * 1 + 1 * (y 0).val = win0_8.index t (0 : Fin 4) * 1 + 1 * (y 0).val; omega
    | ⟨1, _⟩ => show win0_5.index t (1 : Fin 3) * 32 + 1 * (y 1).val = win0_8.index t (1 : Fin 4) * 32 + 1 * (y 1).val; omega
    | ⟨2, _⟩ => show win0_5.index t (2 : Fin 3) * 256 + 1 * (y 2).val = win0_8.index t (2 : Fin 4) * 256 + 1 * (y 2).val; omega
  have e6 : ((cfg0.win 6).blk t).view.emb (ix3 (n0 := 1) (n1 := 32) (n2 := 256) (y 0) (y 1) (y 2)) = (ix3 (n0 := 8) (n1 := 256) (n2 := 256) ((((cfg0.win 8).blk t).view.emb y) 0) ((((cfg0.win 8).blk t).view.emb y) 1) ((((cfg0.win 8).blk t).view.emb y) 2)) := by
    funext a; apply Fin.ext
    match a with
    | ⟨0, _⟩ => show win0_6.index t (0 : Fin 3) * 1 + 1 * (y 0).val = win0_8.index t (0 : Fin 4) * 1 + 1 * (y 0).val; omega
    | ⟨1, _⟩ => show win0_6.index t (1 : Fin 3) * 32 + 1 * (y 1).val = win0_8.index t (1 : Fin 4) * 32 + 1 * (y 1).val; omega
    | ⟨2, _⟩ => show win0_6.index t (2 : Fin 3) * 256 + 1 * (y 2).val = win0_8.index t (2 : Fin 4) * 256 + 1 * (y 2).val; omega
  have e7 : ((cfg0.win 7).blk t).view.emb (ix3 (n0 := 1) (n1 := 32) (n2 := 256) (y 0) (y 1) (y 2)) = (ix3 (n0 := 8) (n1 := 256) (n2 := 256) ((((cfg0.win 8).blk t).view.emb y) 0) ((((cfg0.win 8).blk t).view.emb y) 1) ((((cfg0.win 8).blk t).view.emb y) 2)) := by
    funext a; apply Fin.ext
    match a with
    | ⟨0, _⟩ => show win0_7.index t (0 : Fin 3) * 1 + 1 * (y 0).val = win0_8.index t (0 : Fin 4) * 1 + 1 * (y 0).val; omega
    | ⟨1, _⟩ => show win0_7.index t (1 : Fin 3) * 32 + 1 * (y 1).val = win0_8.index t (1 : Fin 4) * 32 + 1 * (y 1).val; omega
    | ⟨2, _⟩ => show win0_7.index t (2 : Fin 3) * 256 + 1 * (y 2).val = win0_8.index t (2 : Fin 4) * 256 + 1 * (y 2).val; omega
  exact Cert.Combine.combine_congr (n0 := 1) (n1 := 32) (n2 := 256) (n3 := 64) (k0 := 8) (k1 := 256) (k2 := 256) (k3 := 64)
    (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7)
    A0 A1 A2 A3 A4 A5 A6 A7 y (((cfg0.win 8).blk t).view.emb y)
    (congrArg A0 e0) (congrArg A1 e1) (congrArg A2 e2) (congrArg A3 e3)
    (congrArg A4 e4) (congrArg A5 e5) (congrArg A6 e6) (congrArg A7 e7)

set_option maxHeartbeats 1000000 in
/-- What grid point `t` writes back is block `t` of the combine of the whole arrays the region finds. -/
theorem flushed_eq (c : Dev nD) (t : Fin cfg0.N) :
    (dats m 0 c).flushed 8 t = ((cfg0.win 8).blk t).view.read (Elt Ideal) (wholeCombine m c) := by
  show (cfg0.win 8).cut (grid0.coords t) ((dats m 0 c).after 8 t) = _
  rw [after0_8, block_eq]
  unfold iblk wholeCombine
  generalize V m c = found
  exact block_of_whole (found main_v59) (found main_v80) (found main_v101) (found main_v122)
    (found main_v123) (found main_v124) (found main_v125) (found main_v126) t

/-- An index of the output array is in point `t`'s block iff each coordinate is in the block's range on its axis. -/
theorem mem_block (t : Fin cfg0.N) (i : S8x256x256x64.Idx) :
    i ∈ ((cfg0.win 8).blk t).view.set ↔ ∀ a : Fin 4, win0_8.index t a * S1x32x256x64.size a ≤ (i a).val ∧ (i a).val < win0_8.index t a * S1x32x256x64.size a + S1x32x256x64.size a := by
  show i ∈ ((View.whole main_v127).slice (win0_8.rect t)).set ↔ _
  rw [View.set_slice_whole, Rect.mem_set_unit]
  exact Iff.rfl

/-- The 64 blocks cover the output array: index (n, r, q, k) lies in the block of the point at (n, r / 32). -/
theorem blocks_cover (i : S8x256x256x64.Idx) :
    ∃ t : Fin cfg0.N, (cfg0.win 8).flush t = true ∧ i ∈ ((cfg0.win 8).blk t).view.set := by
  have hi0 : (i 0).val < 8 := (i 0).isLt
  have hi1 : (i 1).val < 256 := (i 1).isLt
  have hi2 : (i 2).val < 256 := (i 2).isLt
  have hi3 : (i 3).val < 64 := (i 3).isLt
  obtain ⟨t, ht⟩ := every_block ⟨(i 0).val, hi0⟩ ⟨(i 1).val / 32, by omega⟩
  have q0 : win0_8.index t (0 : Fin 4) = (i 0).val := congrFun ht 0
  have q1 : win0_8.index t (1 : Fin 4) = (i 1).val / 32 := congrFun ht 1
  have q2 : win0_8.index t (2 : Fin 4) = 0 := congrFun ht 2
  have q3 : win0_8.index t (3 : Fin 4) = 0 := congrFun ht 3
  refine ⟨t, flush0_8 t, ?_⟩
  rw [mem_block]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 32 ≤ (i 1).val ∧ (i 1).val < win0_8.index t (1 : Fin 4) * 32 + 32; omega
  | ⟨2, _⟩ => show win0_8.index t (2 : Fin 4) * 256 ≤ (i 2).val ∧ (i 2).val < win0_8.index t (2 : Fin 4) * 256 + 256; omega
  | ⟨3, _⟩ => show win0_8.index t (3 : Fin 4) * 64 ≤ (i 3).val ∧ (i 3).val < win0_8.index t (3 : Fin 4) * 64 + 64; omega

/-- After the region the output array is the combine of the whole arrays. -/
theorem output_eq (c : Dev nD) : (dats m 0 c).arrAt 8 cfg0.N = wholeCombine m c :=
  (dats m 0 c).arrAt_eq_of_cover 8 (wholeCombine m c) (fun t _ => flushed_eq m c t) blocks_cover

/-- After the last host line the result buffer holds that array with the channel axis moved to second place. -/
theorem result_eq (c : Dev nD) :
    Pipeline.afterTail₀ cfgs (dats m) 0 (V0 m) [hostOps1] c main_v128
      = transpose S8x64x256x256 [0, 3, 1, 2] (wholeCombine m c) transposes_S8x256x256x64_S8x64x256x256_0_3_1_2 := by
  unfold Pipeline.afterTail₀
  show StableHlo.after hostOps1 _ (Proc.devRef .tc main_v128) = _
  after_results
  refine congrArg (fun z => transpose S8x64x256x256 [0, 3, 1, 2] z transposes_S8x256x256x64_S8x64x256x256_0_3_1_2) ?_
  exact (Pipeline.withArrays_arr spec0 launch0.win.arr_inj c _ _ 8).trans (output_eq m c)

/-- The run, read: every weakly fair execution ends with the result at the transposed combine and both arguments as
    launched. -/
theorem run_value : θ_run defs (onTc (τ := τ) (main (F := Ideal))) ⟨m, fun _ => 0, ρ⟩ fun r => ∀ c : Dev nD,
      r.2.mem ((c.tc : Thread nD τ).loc main_v128)
        = transpose S8x64x256x256 [0, 3, 1, 2] (wholeCombine m c) transposes_S8x256x256x64_S8x64x256x256_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v128 (Pipeline.mem_restRefs_of main_v128 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Gen.Combine

end
-- ==== Proof.LibNaryThree.lean ====
/-
  A host operation over a literal family of three operands, read at its result.

  A three-piece `stablehlo.concatenate` prints as `StableHlo.nary ![x, a, b] y f`. Its result at its own reference is
  `f` of the three operands' contents, each AT ITS OWN REFERENCE (`Fin.cons` over the literal positions 0, 1, 2) rather
  than under a binder over the family's index — so that a pass which rewrites each operation's result goes on into the
  operands. Stated with the result reference un-indexed, for use in a `simp only` pass beside the library's
  `nullary_result'`, `unary_result'`, … (Lib/StableHlo/Run.lean has this form for four operands).
-/
import Idealize.ShloMosaic.Lib.StableHlo.Run

noncomputable section

namespace Cert.LibNaryThree

open Idealize.ShloMosaic Idealize.ShloMosaic.StableHlo Idealize.SL.Sem

/-- The result of a three-operand host operation, with each operand's contents at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNaryThree

end
-- ==== Proof.CombinePrefix.lean ====
/-
  What the region finds, in the reference's terms.

  Before its region the kernel's program runs the same host lines as the reference: the two sampling coordinates scaled
  to pixels, their floors and fractional parts, the four clamped corner coordinates turned to integers, the image with
  its channel axis moved last, four gathers at the corner coordinates, and four products of fractional parts. Read back
  through those lines, each of the eight arrays the region finds is the reference's stage of the same name: the four
  gathered corner arrays and the four weight maps, as functions of the two arguments.
-/
import proofs.«108412_j11450382812072_2_alg».proof.Proof.CombineFrameIdeal
import proofs.«108412_j11450382812072_2_alg».proof.Proof.Gen.ReferenceIdeal.Read
import proofs.«108412_j11450382812072_2_alg».proof.Proof.LibNaryThree
import Idealize.ShloMosaic.PureOps.Ideal

set_option maxRecDepth 16384

noncomputable section

namespace Cert.KernelIdeal.Gen.Combine

open Idealize.ShloMosaic Idealize.ShloMosaic.TcCoe Idealize.SL.Sem

variable (m : (ℓ : Loc nD τ sig) → Buf (Elt Ideal) ℓ)

set_option maxHeartbeats 100000000 in
/-- The eight arrays the region finds are the reference's four gathered corner arrays and four weight maps of the
    same two arguments. -/
theorem found_eq (c : Dev nD) :
    V m c main_v59 = Cert.ReferenceIdeal.Read.val_main_v59 (F := Ideal) (m ((c : Thread nD τ).loc main_arg0)) (m ((c : Thread nD τ).loc main_arg1))
    ∧ V m c main_v80 = Cert.ReferenceIdeal.Read.val_main_v84 (F := Ideal) (m ((c : Thread nD τ).loc main_arg0)) (m ((c : Thread nD τ).loc main_arg1))
    ∧ V m c main_v101 = Cert.ReferenceIdeal.Read.val_main_v110 (F := Ideal) (m ((c : Thread nD τ).loc main_arg0)) (m ((c : Thread nD τ).loc main_arg1))
    ∧ V m c main_v122 = Cert.ReferenceIdeal.Read.val_main_v136 (F := Ideal) (m ((c : Thread nD τ).loc main_arg0)) (m ((c : Thread nD τ).loc main_arg1))
    ∧ V m c main_v123 = Cert.ReferenceIdeal.Read.val_main_v60 (F := Ideal) (m ((c : Thread nD τ).loc main_arg1))
    ∧ V m c main_v124 = Cert.ReferenceIdeal.Read.val_main_v85 (F := Ideal) (m ((c : Thread nD τ).loc main_arg1))
    ∧ V m c main_v125 = Cert.ReferenceIdeal.Read.val_main_v111 (F := Ideal) (m ((c : Thread nD τ).loc main_arg1))
    ∧ V m c main_v126 = Cert.ReferenceIdeal.Read.val_main_v137 (F := Ideal) (m ((c : Thread nD τ).loc main_arg1)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.quaternary_result', StableHlo.reshape_result', Cert.LibNaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  exact ⟨rfl, rfl, rfl, rfl, rfl, rfl, rfl, rfl⟩

end Cert.KernelIdeal.Gen.Combine

end
-- ==== Proof.CombineReference.lean ====
/-
  The reference's result as the same combine.

  The reference forms its four products and three sums on whole arrays on the host, each weight map broadcast to
  [8, 256, 256, 1] and then along the 64 channels. Read stage by stage, its array before the final transpose is the
  combine of its own four gathered corner arrays and its own four weight maps.
-/
import proofs.«108412_j11450382812072_2_alg».proof.Proof.Gen.ReferenceIdeal.Read
import proofs.«108412_j11450382812072_2_alg».proof.Proof.CombineSpec

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's array before its last transpose is the combine of its corner arrays and weight maps. -/
theorem before_transpose_eq (x0 : (⟨S8x64x256x256, .f32⟩ : BufTy).Contents (Elt Ideal)) (x1 : (⟨S8x256x256x2, .f32⟩ : BufTy).Contents (Elt Ideal)) :
    val_main_v141 (F := Ideal) x0 x1
      = Cert.Combine.combine (n0 := 8) (n1 := 256) (n2 := 256) (n3 := 64)
          (val_main_v59 (F := Ideal) x0 x1) (val_main_v84 (F := Ideal) x0 x1) (val_main_v110 (F := Ideal) x0 x1) (val_main_v136 (F := Ideal) x0 x1)
          (val_main_v60 (F := Ideal) x1) (val_main_v85 (F := Ideal) x1) (val_main_v111 (F := Ideal) x1) (val_main_v137 (F := Ideal) x1) := by
  unfold val_main_v141 val_main_v140 val_main_v139 val_main_v138 val_main_v115 val_main_v114 val_main_v113 val_main_v112
    val_main_v89 val_main_v88 val_main_v87 val_main_v86 val_main_v63 val_main_v62 val_main_v61
  exact Cert.Combine.combine_of_bcast (n0 := 8) (n1 := 256) (n2 := 256) (n3 := 64) _ _ _ _ _ _ _ _ _ _

/-- The reference's result is that combine with the channel axis moved to second place. -/
theorem result_eq (m : (ℓ : Loc nD τ sig) → Buf (Elt Ideal) ℓ) (c : Dev nD) :
    Cert.ReferenceIdeal.Value.res_main_v142 m c
      = transpose S8x64x256x256 [0, 3, 1, 2]
          (Cert.Combine.combine (n0 := 8) (n1 := 256) (n2 := 256) (n3 := 64)
            (val_main_v59 (F := Ideal) (m ((c.tc : Thread nD τ).loc main_arg0)) (m ((c.tc : Thread nD τ).loc main_arg1)))
            (val_main_v84 (F := Ideal) (m ((c.tc : Thread nD τ).loc main_arg0)) (m ((c.tc : Thread nD τ).loc main_arg1)))
            (val_main_v110 (F := Ideal) (m ((c.tc : Thread nD τ).loc main_arg0)) (m ((c.tc : Thread nD τ).loc main_arg1)))
            (val_main_v136 (F := Ideal) (m ((c.tc : Thread nD τ).loc main_arg0)) (m ((c.tc : Thread nD τ).loc main_arg1)))
            (val_main_v60 (F := Ideal) (m ((c.tc : Thread nD τ).loc main_arg1)))
            (val_main_v85 (F := Ideal) (m ((c.tc : Thread nD τ).loc main_arg1)))
            (val_main_v111 (F := Ideal) (m ((c.tc : Thread nD τ).loc main_arg1)))
            (val_main_v137 (F := Ideal) (m ((c.tc : Thread nD τ).loc main_arg1))))
          transposes_S8x256x256x64_S8x64x256x256_0_3_1_2 := by
  rw [val_main_v142_eq]
  unfold val_main_v142
  rw [before_transpose_eq]

end Cert.ReferenceIdeal.RefValue

end
-- ==== Proof.CombineBridge.lean ====
/-
  The two results are one array.

  The kernel's result is the transposed combine of the eight arrays its region finds; those are the reference's four
  gathered corner arrays and four weight maps of the same arguments; and the reference's result is the transposed
  combine of exactly those. Nothing is left but to put the three statements side by side.
-/
import proofs.«108412_j11450382812072_2_alg».proof.Proof.CombineValue
import proofs.«108412_j11450382812072_2_alg».proof.Proof.CombinePrefix
import proofs.«108412_j11450382812072_2_alg».proof.Proof.CombineReference

noncomputable section

namespace Cert.KernelIdeal.Gen.Combine

open Idealize.ShloMosaic Idealize.ShloMosaic.TcCoe Idealize.SL.Sem

/-- The kernel's result, as a function of its two arguments, is the reference's result of the same two arguments. -/
theorem results_agree (m : (ℓ : Loc nD τ sig) → Buf (Elt Ideal) ℓ) (c : Dev nD) :
    transpose Cert.ReferenceIdeal.S8x64x256x256 [0, 3, 1, 2]
        (Cert.Combine.combine (n0 := 8) (n1 := 256) (n2 := 256) (n3 := 64)
          (Cert.ReferenceIdeal.Read.val_main_v59 (F := Ideal) (m ((c.tc : Thread nD τ).loc main_arg0)) (m ((c.tc : Thread nD τ).loc main_arg1)))
          (Cert.ReferenceIdeal.Read.val_main_v84 (F := Ideal) (m ((c.tc : Thread nD τ).loc main_arg0)) (m ((c.tc : Thread nD τ).loc main_arg1)))
          (Cert.ReferenceIdeal.Read.val_main_v110 (F := Ideal) (m ((c.tc : Thread nD τ).loc main_arg0)) (m ((c.tc : Thread nD τ).loc main_arg1)))
          (Cert.ReferenceIdeal.Read.val_main_v136 (F := Ideal) (m ((c.tc : Thread nD τ).loc main_arg0)) (m ((c.tc : Thread nD τ).loc main_arg1)))
          (Cert.ReferenceIdeal.Read.val_main_v60 (F := Ideal) (m ((c.tc : Thread nD τ).loc main_arg1)))
          (Cert.ReferenceIdeal.Read.val_main_v85 (F := Ideal) (m ((c.tc : Thread nD τ).loc main_arg1)))
          (Cert.ReferenceIdeal.Read.val_main_v111 (F := Ideal) (m ((c.tc : Thread nD τ).loc main_arg1)))
          (Cert.ReferenceIdeal.Read.val_main_v137 (F := Ideal) (m ((c.tc : Thread nD τ).loc main_arg1))))
        Cert.ReferenceIdeal.Gen.transposes_S8x256x256x64_S8x64x256x256_0_3_1_2
      = transpose S8x64x256x256 [0, 3, 1, 2] (wholeCombine m c) transposes_S8x256x256x64_S8x64x256x256_0_3_1_2 := by
  obtain ⟨h0, h1, h2, h3, h4, h5, h6, h7⟩ := found_eq m c
  unfold wholeCombine
  rw [h0, h1, h2, h3, h4, h5, h6, h7]

end Cert.KernelIdeal.Gen.Combine

end
-- ==== Proof.lean ====
/-
  Bilinear sampling of an image x [8, 64, 256, 256] at a grid of points [8, 256, 256, 2]: kernel against reference.

  Both programs compute, on the host and by the same lines, the four corner pixels of every sampling point (gathered
  from the image with its channel axis last) and the four bilinear weights (products of the fractional parts). They
  differ only in where the weighted sum g00·w00 + g01·w01 + g10·w10 + g11·w11 is formed: the reference on whole arrays
  on the host, the kernel block by block (32 output rows of one image at a time) in one region. The sum is formed in
  the same order with the same operands on both sides, so on the extended reals the two results are one function of
  the arguments index by index, with no law of arithmetic and no use of finiteness.

  The frames: each kernel program's run around its region (CombineFrameBits, CombineFrameIdeal); the reference's from
  its run with the result dropped. The idealization rewrote nothing, so there is nothing to preserve. The results:
  the kernel's output array is the combine of the eight arrays the region finds (CombineValue), those are the
  reference's stages of the same arguments (CombinePrefix), and the reference's result is the combine of its stages
  (CombineReference); both end with one transpose, and CombineBridge sets the three side by side.
-/
import proofs.«108412_j11450382812072_2_alg».proof.Defs
import proofs.«108412_j11450382812072_2_alg».proof.Proof.Gen.Kernel
import proofs.«108412_j11450382812072_2_alg».proof.Proof.Gen.Kernel.Skeleton
import proofs.«108412_j11450382812072_2_alg».proof.Proof.Gen.Kernel.Launch
import proofs.«108412_j11450382812072_2_alg».proof.Proof.Gen.Kernel.Points
import proofs.«108412_j11450382812072_2_alg».proof.Proof.Gen.KernelIdeal
import proofs.«108412_j11450382812072_2_alg».proof.Proof.Gen.KernelIdeal.Skeleton
import proofs.«108412_j11450382812072_2_alg».proof.Proof.Gen.KernelIdeal.Launch
import proofs.«108412_j11450382812072_2_alg».proof.Proof.Gen.KernelIdeal.Points
import proofs.«108412_j11450382812072_2_alg».proof.Proof.Gen.ReferenceIdeal
import proofs.«108412_j11450382812072_2_alg».proof.Proof.Gen.ReferenceIdeal.Read
import proofs.«108412_j11450382812072_2_alg».proof.Proof.Gen.Pre_finite_inputs
import proofs.«108412_j11450382812072_2_alg».proof.Proof.CombineFrameBits
import proofs.«108412_j11450382812072_2_alg».proof.Proof.CombineFrameIdeal
import proofs.«108412_j11450382812072_2_alg».proof.Proof.CombineValue
import proofs.«108412_j11450382812072_2_alg».proof.Proof.CombinePrefix
import proofs.«108412_j11450382812072_2_alg».proof.Proof.CombineReference
import proofs.«108412_j11450382812072_2_alg».proof.Proof.CombineBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.Combine.frame (F := Bits) m ρ
theorem frame_kernelIdeal : Cert.frame_KernelIdeal := fun m ρ _ => Cert.KernelIdeal.Gen.Combine.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

/-- The kernel's result array and the reference's are the same transposed combine of the same eight arrays. -/
theorem algebraic : Cert.algebraic_KernelIdeal_ReferenceIdeal := by
  intro m ρ m' ρ' _ hagree
  refine ⟨_, Cert.KernelIdeal.Gen.Combine.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]
  exact Cert.KernelIdeal.Gen.Combine.results_agree m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
